-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x2500000 : Shape := ⟨2, ![2, 2500000]⟩
abbrev S32x16 : Shape := ⟨2, ![32, 16]⟩
abbrev S16 : Shape := ⟨1, ![16]⟩
abbrev S16x32 : Shape := ⟨2, ![16, 32]⟩
abbrev S32 : Shape := ⟨1, ![32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S16x32 .f32) (main_arg9 : FVec F S32 .f32) (main_v33 : IVec S_ 1) : IVec S_ 1 :=
  let main_v34 : FVec F S16x32 .f32 := Host.absf main_arg8
  let main_cst_12 : FVec F S_ .f32 := constant S_ .f32 0x7F800000#32
  let main_v35 : FVec F S16x32 .f32 := broadcastInDim S16x32 ![] bcast_S_S16x32 main_cst_12
  let main_v36 : IVec S16x32 1 := cmpf .olt main_v34 main_v35
  let main_c_13 : IVec S_ 1 := constantI S_ 1 1#1
  let main_v37 : IVec S_ 1 := (fun x v => Host.reduce IntOp.andi x v reducesTo_S16x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg5 : FVec F S32 .f32) (main_arg6 : FVec F S32x16 .f32) (main_arg7 : FVec F S16 .f32) (main_arg8 : FVec F S16x32 .f32) (main_arg9 : FVec F S32 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg6
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_v33

def fn {F : FTy → Type} [FloatOps F] (main_arg0 : FVec F S100000x32 .f32) (main_arg1 : IVec S2x2500000 32) (main_arg2 : FVec F S32x16 .f32) (main_arg3 : FVec F S16 .f32) (main_arg4 : FVec F S16x32 .f32) (main_arg5 : FVec F S32 .f32) (main_arg6 : FVec F S32x16 .f32) (main_arg7 : FVec F S16 .f32) (main_arg8 : FVec F S16x32 .f32) (main_arg9 : FVec F S32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x16 .f32 := Host.absf main_arg2
  let main_cst_0 : FVec F S_ .f32 := constant S_ .f32 0x7F800000#32
  let main_v5 : FVec F S32x16 .f32 := broadcastInDim S32x16 ![] bcast_S_S32x16 main_cst_0
  let main_v6 : IVec S32x16 1 := cmpf .olt main_v4 main_v5
  let main_c_1 : IVec S_ 1 := constantI S_ 1 1#1
  let main_v7 : IVec S_ 1 := (fun x v => Host.reduce IntOp.andi x v reducesTo_S32x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg4
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg5 main_arg6 main_arg7 main_arg8 main_arg9 main_v13 main_v16
-- ==== Kernel.lean ====
abbrev S100000x32 : Shape := ⟨2, ![100000, 32]⟩
abbrev S2x2500000 : Shape := ⟨2, ![2, 2500000]⟩
abbrev S32x16 : Shape := ⟨2, ![32, 16]⟩
abbrev S16 : Shape := ⟨1, ![16]⟩
abbrev S16x32 : Shape := ⟨2, ![16, 32]⟩
abbrev S32 : Shape := ⟨1, ![32]⟩
abbrev S1x2500000 : Shape := ⟨2, ![1, 2500000]⟩
abbrev S2500000 : Shape := ⟨1, ![2500000]⟩
abbrev S_ : Shape := ⟨0, ![]⟩
abbrev S2500000x1 : Shape := ⟨2, ![2500000, 1]⟩
abbrev S2500000x32 : Shape := ⟨2, ![2500000, 32]⟩
abbrev S1x16 : Shape := ⟨2, ![1, 16]⟩
abbrev S1x32 : Shape := ⟨2, ![1, 32]⟩
abbrev S5000x32 : Shape := ⟨2, ![5000, 32]⟩
abbrev S5000x16 : Shape := ⟨2, ![5000, 16]⟩

abbrev nBuf : Space → Nat
  | .hbm => 49
  | .vmem => 20
  | .smem => 0
  | _ => 0

abbrev bufTy : (tb : Table) → Fin (tcTables nBuf tb) → BufTy
  | .hbm, ⟨0, _⟩ => ⟨S100000x32, .f32⟩
  | .hbm, ⟨1, _⟩ => ⟨S2x2500000, .i32⟩
  | .hbm, ⟨2, _⟩ => ⟨S32x16, .f32⟩
  | .hbm, ⟨3, _⟩ => ⟨S16, .f32⟩
  | .hbm, ⟨4, _⟩ => ⟨S16x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S16x32, .f32⟩
  | .hbm, ⟨9, _⟩ => ⟨S32, .f32⟩
  | .hbm, ⟨10, _⟩ => ⟨S1x2500000, .i32⟩
  | .hbm, ⟨11, _⟩ => ⟨S2500000, .i32⟩
  | .hbm, ⟨12, _⟩ => ⟨S1x2500000, .i32⟩
  | .hbm, ⟨13, _⟩ => ⟨S2500000, .i32⟩
  | .hbm, ⟨14, _⟩ => ⟨S100000x32, .bf16⟩
  | .hbm, ⟨15, _⟩ => ⟨S_, .i32⟩
  | .hbm, ⟨16, _⟩ => ⟨S2500000, .i32⟩
  | .hbm, ⟨17, _⟩ => ⟨S2500000, .i1⟩
  | .hbm, ⟨18, _⟩ => ⟨S_, .i32⟩
  | .hbm, ⟨19, _⟩ => ⟨S2500000, .i32⟩
  | .hbm, ⟨20, _⟩ => ⟨S2500000, .i32⟩
  | .hbm, ⟨21, _⟩ => ⟨S2500000, .i32⟩
  | .hbm, ⟨22, _⟩ => ⟨S2500000x1, .i32⟩
  | .hbm, ⟨23, _⟩ => ⟨S2500000x32, .bf16⟩
  | .hbm, ⟨24, _⟩ => ⟨S2500000x32, .f32⟩
  | .hbm, ⟨25, _⟩ => ⟨S_, .f32⟩
  | .hbm, ⟨26, _⟩ => ⟨S100000x32, .f32⟩
  | .hbm, ⟨27, _⟩ => ⟨S2500000x1, .i32⟩
  | .hbm, ⟨28, _⟩ => ⟨S100000x32, .f32⟩
  | .hbm, ⟨29, _⟩ => ⟨S1x16, .f32⟩
  | .hbm, ⟨30, _⟩ => ⟨S1x32, .f32⟩
  | .hbm, ⟨31, _⟩ => ⟨S100000x32, .bf16⟩
  | .hbm, ⟨32, _⟩ => ⟨S_, .i32⟩
  | .hbm, ⟨33, _⟩ => ⟨S2500000, .i32⟩
  | .hbm, ⟨34, _⟩ => ⟨S2500000, .i1⟩
  | .hbm, ⟨35, _⟩ => ⟨S_, .i32⟩
  | .hbm, ⟨36, _⟩ => ⟨S2500000, .i32⟩
  | .hbm, ⟨37, _⟩ => ⟨S2500000, .i32⟩
  | .hbm, ⟨38, _⟩ => ⟨S2500000, .i32⟩
  | .hbm, ⟨39, _⟩ => ⟨S2500000x1, .i32⟩
  | .hbm, ⟨40, _⟩ => ⟨S2500000x32, .bf16⟩
  | .hbm, ⟨41, _⟩ => ⟨S2500000x32, .f32⟩
  | .hbm, ⟨42, _⟩ => ⟨S_, .f32⟩
  | .hbm, ⟨43, _⟩ => ⟨S100000x32, .f32⟩
  | .hbm, ⟨44, _⟩ => ⟨S2500000x1, .i32⟩
  | .hbm, ⟨45, _⟩ => ⟨S100000x32, .f32⟩
  | .hbm, ⟨46, _⟩ => ⟨S1x16, .f32⟩
  | .hbm, ⟨47, _⟩ => ⟨S1x32, .f32⟩
  | .hbm, ⟨48, _⟩ => ⟨S100000x32, .f32⟩
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S32x16, .f32⟩
  | .local _ .vmem, ⟨5, _⟩ => ⟨S1x16, .f32⟩
  | .local _ .vmem, ⟨6, _⟩ => ⟨S16x32, .f32⟩
  | .local _ .vmem, ⟨7, _⟩ => ⟨S1x32, .f32⟩
  | .local _ .vmem, ⟨8, _⟩ => ⟨S5000x32, .bf16⟩
  | .local _ .vmem, ⟨9, _⟩ => ⟨S5000x32, .bf16⟩
  | .local _ .vmem, ⟨10, _⟩ => ⟨S5000x32, .bf16⟩
  | .local _ .vmem, ⟨11, _⟩ => ⟨S5000x32, .bf16⟩
  | .local _ .vmem, ⟨12, _⟩ => ⟨S5000x32, .f32⟩
  | .local _ .vmem, ⟨13, _⟩ => ⟨S5000x32, .f32⟩
  | .local _ .vmem, ⟨14, _⟩ => ⟨S32x16, .f32⟩
  | .local _ .vmem, ⟨15, _⟩ => ⟨S1x16, .f32⟩
  | .local _ .vmem, ⟨16, _⟩ => ⟨S16x32, .f32⟩
  | .local _ .vmem, ⟨17, _⟩ => ⟨S1x32, .f32⟩
  | .local _ .vmem, ⟨18, _⟩ => ⟨S5000x32, .f32⟩
  | .local _ .vmem, ⟨19, _⟩ => ⟨S5000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x32 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x2500000_S1x2500000_0_0 : S2x2500000.Slices ![0, 0] S1x2500000
  shapeCasts_S1x2500000_S2500000 : S1x2500000.ShapeCasts S2500000
  slices_S2x2500000_S1x2500000_1_0 : S2x2500000.Slices ![1, 0] S1x2500000
  bitsLt_bf16_f32 : FTy.bits .bf16 < FTy.bits .f32
  bcast_S_S2500000 : S_.BroadcastsInDim S2500000 (![] : Fin 0 → Fin S2500000.rank)
  bcast_S2500000_S2500000x1_0 : S2500000.BroadcastsInDim S2500000x1 (![0] : Fin 1 → Fin S2500000x1.rank)
  bcast_S_S100000x32 : S_.BroadcastsInDim S100000x32 (![] : Fin 0 → Fin S100000x32.rank)
  shapeCasts_S16_S1x16 : S16.ShapeCasts S1x16
  shapeCasts_S32_S1x32 : S32.ShapeCasts S1x32
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  packedbf16_S5000x32_S5000x32_0_0 : (Rect.unit (s := S5000x32) ![0, 0] S5000x32.size inb_S5000x32_S5000x32_0_0).PackedRows (EltTy.packing .bf16)
  gather_S100000x32_S2500000x1_S2500000x32_1_0_n_n_0_1_132_wf : GatherDims.WF S100000x32 S2500000x1 S2500000x32 [1] [0] [] [0] [] 1 ![1, 32]
  scatter_S100000x32_S2500000x1_S2500000x32_1_0_0_1_wf : ScatterDims.WF S100000x32 S2500000x1 S2500000x32 [1] [0] [0] 1
  dot_S5000x32_S32x16_S5000x16_1_0_0_1_n_n_wf : DotDims.WF S5000x32 S32x16 S5000x16 [1] [0] [0] [1] [] []
  dot_S5000x16_S16x32_S5000x32_1_0_0_1_n_n_wf : DotDims.WF S5000x16 S16x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S100000x32.size a
  hwx0_1 : ∀ i : grid0.Coords, EltTy.bits .f32 = 32 ∨ (Rect.block (s := S100000x32) S5000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x16.size a ≤ S32x16.size a
  hwx0_2 : ∀ i : grid0.Coords, EltTy.bits .f32 = 32 ∨ (Rect.block (s := S32x16) S32x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x32.size a ≤ S16x32.size a
  hwx0_4 : ∀ i : grid0.Coords, EltTy.bits .f32 = 32 ∨ (Rect.block (s := S16x32) S16x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x32.size a ≤ S100000x32.size a
  hwx0_6 : ∀ i : grid0.Coords, EltTy.bits .bf16 = 32 ∨ (Rect.block (s := S100000x32) S5000x32.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .bf16 = 32 ∨ (Rect.block (s := S100000x32) S5000x32.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x16.size a ≤ S32x16.size a
  hwx1_2 : ∀ i : grid1.Coords, EltTy.bits .f32 = 32 ∨ (Rect.block (s := S32x16) S32x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x32.size a ≤ S16x32.size a
  hwx1_4 : ∀ i : grid1.Coords, EltTy.bits .f32 = 32 ∨ (Rect.block (s := S16x32) S16x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x32.size a ≤ S100000x32.size a
  hwx1_6 : ∀ i : grid1.Coords, EltTy.bits .f32 = 32 ∨ (Rect.block (s := S100000x32) S5000x32.size (cc1_transform_6 i) (hinb1_6 i)).WholeWords (EltTy.packing .f32)

variable [Facts₀]

def gather_S100000x32_S2500000x1_S2500000x32_1_0_n_n_0_1_132 : GatherDims S100000x32 S2500000x1 S2500000x32 where
  offsetDims := [1]
  collapsedSliceDims := [0]
  operandBatchingDims := []
  startIndicesBatchingDims := []
  startIndexMap := [0]
  indexVectorDim := 1
  sliceSizes := ![1, 32]
  wf := gather_S100000x32_S2500000x1_S2500000x32_1_0_n_n_0_1_132_wf
def scatter_S100000x32_S2500000x1_S2500000x32_1_0_0_1 : ScatterDims S100000x32 S2500000x1 S2500000x32 where
  updateWindowDims := [1]
  insertedWindowDims := [0]
  scatterDimsToOperandDims := [0]
  indexVectorDim := 1
  wf := scatter_S100000x32_S2500000x1_S2500000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S5000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v18) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S32x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S16x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S5000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x32 : Shape := ⟨2, ![100000, 32]⟩
abbrev S2x2500000 : Shape := ⟨2, ![2, 2500000]⟩
abbrev S32x16 : Shape := ⟨2, ![32, 16]⟩
abbrev S16 : Shape := ⟨1, ![16]⟩
abbrev S16x32 : Shape := ⟨2, ![16, 32]⟩
abbrev S32 : Shape := ⟨1, ![32]⟩
abbrev S1x2500000 : Shape := ⟨2, ![1, 2500000]⟩
abbrev S2500000 : Shape := ⟨1, ![2500000]⟩
abbrev S_ : Shape := ⟨0, ![]⟩
abbrev S2500000x1 : Shape := ⟨2, ![2500000, 1]⟩
abbrev S2500000x32 : Shape := ⟨2, ![2500000, 32]⟩
abbrev S100000x16 : Shape := ⟨2, ![100000, 16]⟩
abbrev S1x16 : Shape := ⟨2, ![1, 16]⟩
abbrev S1x32 : Shape := ⟨2, ![1, 32]⟩

abbrev nBuf : Space → Nat
  | .hbm => 67
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x2500000, .i32⟩
  | .hbm, ⟨2, _⟩ => ⟨S32x16, .f32⟩
  | .hbm, ⟨3, _⟩ => ⟨S16, .f32⟩
  | .hbm, ⟨4, _⟩ => ⟨S16x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S16x32, .f32⟩
  | .hbm, ⟨9, _⟩ => ⟨S32, .f32⟩
  | .hbm, ⟨10, _⟩ => ⟨S1x2500000, .i32⟩
  | .hbm, ⟨11, _⟩ => ⟨S2500000, .i32⟩
  | .hbm, ⟨12, _⟩ => ⟨S1x2500000, .i32⟩
  | .hbm, ⟨13, _⟩ => ⟨S2500000, .i32⟩
  | .hbm, ⟨14, _⟩ => ⟨S_, .i32⟩
  | .hbm, ⟨15, _⟩ => ⟨S2500000, .i32⟩
  | .hbm, ⟨16, _⟩ => ⟨S2500000, .i1⟩
  | .hbm, ⟨17, _⟩ => ⟨S_, .i32⟩
  | .hbm, ⟨18, _⟩ => ⟨S2500000, .i32⟩
  | .hbm, ⟨19, _⟩ => ⟨S2500000, .i32⟩
  | .hbm, ⟨20, _⟩ => ⟨S2500000, .i32⟩
  | .hbm, ⟨21, _⟩ => ⟨S2500000x1, .i32⟩
  | .hbm, ⟨22, _⟩ => ⟨S2500000x32, .f32⟩
  | .hbm, ⟨23, _⟩ => ⟨S_, .f32⟩
  | .hbm, ⟨24, _⟩ => ⟨S100000x32, .f32⟩
  | .hbm, ⟨25, _⟩ => ⟨S2500000x1, .i32⟩
  | .hbm, ⟨26, _⟩ => ⟨S100000x32, .f32⟩
  | .hbm, ⟨27, _⟩ => ⟨S100000x32, .f32⟩
  | .hbm, ⟨28, _⟩ => ⟨S100000x16, .f32⟩
  | .hbm, ⟨29, _⟩ => ⟨S1x16, .f32⟩
  | .hbm, ⟨30, _⟩ => ⟨S100000x16, .f32⟩
  | .hbm, ⟨31, _⟩ => ⟨S100000x16, .f32⟩
  | .hbm, ⟨32, _⟩ => ⟨S_, .f32⟩
  | .hbm, ⟨33, _⟩ => ⟨S100000x16, .f32⟩
  | .hbm, ⟨34, _⟩ => ⟨S100000x16, .f32⟩
  | .hbm, ⟨35, _⟩ => ⟨S100000x32, .f32⟩
  | .hbm, ⟨36, _⟩ => ⟨S1x32, .f32⟩
  | .hbm, ⟨37, _⟩ => ⟨S100000x32, .f32⟩
  | .hbm, ⟨38, _⟩ => ⟨S100000x32, .f32⟩
  | .hbm, ⟨39, _⟩ => ⟨S_, .f32⟩
  | .hbm, ⟨40, _⟩ => ⟨S100000x32, .f32⟩
  | .hbm, ⟨41, _⟩ => ⟨S100000x32, .f32⟩
  | .hbm, ⟨42, _⟩ => ⟨S_, .i32⟩
  | .hbm, ⟨43, _⟩ => ⟨S2500000, .i32⟩
  | .hbm, ⟨44, _⟩ => ⟨S2500000, .i1⟩
  | .hbm, ⟨45, _⟩ => ⟨S_, .i32⟩
  | .hbm, ⟨46, _⟩ => ⟨S2500000, .i32⟩
  | .hbm, ⟨47, _⟩ => ⟨S2500000, .i32⟩
  | .hbm, ⟨48, _⟩ => ⟨S2500000, .i32⟩
  | .hbm, ⟨49, _⟩ => ⟨S2500000x1, .i32⟩
  | .hbm, ⟨50, _⟩ => ⟨S2500000x32, .f32⟩
  | .hbm, ⟨51, _⟩ => ⟨S_, .f32⟩
  | .hbm, ⟨52, _⟩ => ⟨S100000x32, .f32⟩
  | .hbm, ⟨53, _⟩ => ⟨S2500000x1, .i32⟩
  | .hbm, ⟨54, _⟩ => ⟨S100000x32, .f32⟩
  | .hbm, ⟨55, _⟩ => ⟨S100000x32, .f32⟩
  | .hbm, ⟨56, _⟩ => ⟨S100000x16, .f32⟩
  | .hbm, ⟨57, _⟩ => ⟨S1x16, .f32⟩
  | .hbm, ⟨58, _⟩ => ⟨S100000x16, .f32⟩
  | .hbm, ⟨59, _⟩ => ⟨S100000x16, .f32⟩
  | .hbm, ⟨60, _⟩ => ⟨S_, .f32⟩
  | .hbm, ⟨61, _⟩ => ⟨S100000x16, .f32⟩
  | .hbm, ⟨62, _⟩ => ⟨S100000x16, .f32⟩
  | .hbm, ⟨63, _⟩ => ⟨S100000x32, .f32⟩
  | .hbm, ⟨64, _⟩ => ⟨S1x32, .f32⟩
  | .hbm, ⟨65, _⟩ => ⟨S100000x32, .f32⟩
  | .hbm, ⟨66, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_c_3 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  slices_S2x2500000_S1x2500000_0_0 : S2x2500000.Slices ![0, 0] S1x2500000
  shapeCasts_S1x2500000_S2500000 : S1x2500000.ShapeCasts S2500000
  slices_S2x2500000_S1x2500000_1_0 : S2x2500000.Slices ![1, 0] S1x2500000
  bcast_S_S2500000 : S_.BroadcastsInDim S2500000 (![] : Fin 0 → Fin S2500000.rank)
  bcast_S2500000_S2500000x1_0 : S2500000.BroadcastsInDim S2500000x1 (![0] : Fin 1 → Fin S2500000x1.rank)
  bcast_S_S100000x32 : S_.BroadcastsInDim S100000x32 (![] : Fin 0 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x32_S2500000x1_S2500000x32_1_0_n_n_0_1_132_wf : GatherDims.WF S100000x32 S2500000x1 S2500000x32 [1] [0] [] [0] [] 1 ![1, 32]
  scatter_S100000x32_S2500000x1_S2500000x32_1_0_0_1_wf : ScatterDims.WF S100000x32 S2500000x1 S2500000x32 [1] [0] [0] 1
  dot_S100000x32_S32x16_S100000x16_1_0_0_1_n_n_wf : DotDims.WF S100000x32 S32x16 S100000x16 [1] [0] [0] [1] [] []
  dot_S100000x16_S16x32_S100000x32_1_0_0_1_n_n_wf : DotDims.WF S100000x16 S16x32 S100000x32 [1] [0] [0] [1] [] []

variable [Facts₀]

def gather_S100000x32_S2500000x1_S2500000x32_1_0_n_n_0_1_132 : GatherDims S100000x32 S2500000x1 S2500000x32 where
  offsetDims := [1]
  collapsedSliceDims := [0]
  operandBatchingDims := []
  startIndicesBatchingDims := []
  startIndexMap := [0]
  indexVectorDim := 1
  sliceSizes := ![1, 32]
  wf := gather_S100000x32_S2500000x1_S2500000x32_1_0_n_n_0_1_132_wf
def scatter_S100000x32_S2500000x1_S2500000x32_1_0_0_1 : ScatterDims S100000x32 S2500000x1 S2500000x32 where
  updateWindowDims := [1]
  insertedWindowDims := [0]
  scatterDimsToOperandDims := [0]
  indexVectorDim := 1
  wf := scatter_S100000x32_S2500000x1_S2500000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf

class Facts : Prop extends Facts₀ where

variable [Facts]
-- ==== Proof.KerRun.lean ====
/-
  The idealized kernel program's run, with its result buffer named.

  The generated frame certificate runs the program's four segments — the host operations that build the first
  aggregate, the first kernel call, the host operations that build the second aggregate, the second kernel call — and
  ends with every buffer of the device at the contents the last boundary names (`Gen.W4`); it then reads only the
  argument buffers back. Here the same run is read at the result buffer as well: the program's result is what `Gen.W4`
  holds there, and the arguments end as launched.
-/
import proofs.«177419_j37426345017678_2_alg».proof.Proof.Gen.KernelIdeal.Frame

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, the result buffer holding the last
    boundary's contents there and every argument buffer its launch contents. -/
theorem run : θ_run defs (onTc (τ := τ) (main (F := F))) ⟨m, fun _ => 0, ρ⟩ (fun r => ∀ c : Dev nD,
      r.2.mem ((c.tc : Thread nD τ).loc main_v32) = W4 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v32 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.RunValue

end
-- ==== Proof.DenseRow.lean ====
/-
  One node's pass through a two-layer perceptron, as a plain sum of products on the extended reals.

  A graph-isomorphism layer updates node `p` in two steps. First the node's own feature row and the sum of its
  in-neighbours' rows are added: `u l = h (p, l) + agg (p, l)`. Then `u` goes through Linear → ReLU → Linear:
  the hidden unit `k` is `max (∑ l, u l · Wa (l, k) + ba k) 0`, and the output channel `q` is
  `∑ k, hidden k · Wb (k, q) + bb q`. Both definitions below say exactly that, for 32 input channels, 16 hidden
  units and 32 output channels. The threshold of the ReLU is kept as the float word `+0.0` that both programs
  print, so that neither side ever has to evaluate it.
-/
import Idealize.ShloMosaic.PureOps.Ideal
import Idealize.ShloMosaic.Lib.ValueIdx

noncomputable section

namespace Cert.Gin

open Idealize.ShloMosaic Idealize.ShloMosaic.ValueIdx
open scoped BigOperators

/-- The ReLU's threshold: the float word `+0.0` read as an extended real. -/
abbrev thr : EReal := Ideal.ofBits .f32 0x00000000#32

/-- Hidden unit `k` of the perceptron on the combined row `u`: `max (∑ l, u l · Wa (l, k) + ba k) 0`. -/
def hidden (u : Fin 32 → EReal) (Wa : (⟨2, ![32, 16]⟩ : Shape).Idx → EReal) (ba : Fin 16 → EReal) (k : Fin 16) : EReal :=
  max ((∑ l : Fin 32, u l * Wa (ix2 l k)) + ba k) thr

/-- Output channel `q` of the perceptron on the combined row `u`: `∑ k, hidden k · Wb (k, q) + bb q`. -/
def denseRow (u : Fin 32 → EReal) (Wa : (⟨2, ![32, 16]⟩ : Shape).Idx → EReal) (ba : Fin 16 → EReal)
    (Wb : (⟨2, ![16, 32]⟩ : Shape).Idx → EReal) (bb : Fin 32 → EReal) (q : Fin 32) : EReal :=
  (∑ k : Fin 16, hidden u Wa ba k * Wb (ix2 k q)) + bb q

/-- The perceptron depends only on its six arguments. -/
theorem denseRow_congr {u u' : Fin 32 → EReal} {Wa Wa' : (⟨2, ![32, 16]⟩ : Shape).Idx → EReal} {ba ba' : Fin 16 → EReal}
    {Wb Wb' : (⟨2, ![16, 32]⟩ : Shape).Idx → EReal} {bb bb' : Fin 32 → EReal} {q q' : Fin 32}
    (hu : u = u') (hWa : Wa = Wa') (hba : ba = ba') (hWb : Wb = Wb') (hbb : bb = bb') (hq : q = q') :
    denseRow u Wa ba Wb bb q = denseRow u' Wa' ba' Wb' bb' q' := by
  subst hu hWa hba hWb hbb hq; rfl

/-- One layer on all 100000 nodes: entry `(p, q)` is the perceptron's channel `q` on row `p` of `h + agg`, the node
    features plus the aggregated neighbour features. -/
def layer (h agg : (⟨2, ![100000, 32]⟩ : Shape).Idx → EReal) (Wa : (⟨2, ![32, 16]⟩ : Shape).Idx → EReal) (ba : Fin 16 → EReal)
    (Wb : (⟨2, ![16, 32]⟩ : Shape).Idx → EReal) (bb : Fin 32 → EReal) : (⟨2, ![100000, 32]⟩ : Shape).Idx → EReal :=
  fun j => denseRow (fun l => h (ix2 (j 0) l) + agg (ix2 (j 0) l)) Wa ba Wb bb (j 1)

theorem layer_apply (h agg : (⟨2, ![100000, 32]⟩ : Shape).Idx → EReal) (Wa : (⟨2, ![32, 16]⟩ : Shape).Idx → EReal) (ba : Fin 16 → EReal)
    (Wb : (⟨2, ![16, 32]⟩ : Shape).Idx → EReal) (bb : Fin 32 → EReal) (j : (⟨2, ![100000, 32]⟩ : Shape).Idx) :
    layer h agg Wa ba Wb bb j = denseRow (fun l => h (ix2 (j 0) l) + agg (ix2 (j 0) l)) Wa ba Wb bb (j 1) := rfl

/-- The same layer followed by a ReLU. -/
def layerRelu (h agg : (⟨2, ![100000, 32]⟩ : Shape).Idx → EReal) (Wa : (⟨2, ![32, 16]⟩ : Shape).Idx → EReal) (ba : Fin 16 → EReal)
    (Wb : (⟨2, ![16, 32]⟩ : Shape).Idx → EReal) (bb : Fin 32 → EReal) : (⟨2, ![100000, 32]⟩ : Shape).Idx → EReal :=
  fun j => max (layer h agg Wa ba Wb bb j) thr

theorem layerRelu_apply (h agg : (⟨2, ![100000, 32]⟩ : Shape).Idx → EReal) (Wa : (⟨2, ![32, 16]⟩ : Shape).Idx → EReal) (ba : Fin 16 → EReal)
    (Wb : (⟨2, ![16, 32]⟩ : Shape).Idx → EReal) (bb : Fin 32 → EReal) (j : (⟨2, ![100000, 32]⟩ : Shape).Idx) :
    layerRelu h agg Wa ba Wb bb j = max (layer h agg Wa ba Wb bb j) thr := rfl

end Cert.Gin

end
-- ==== Proof.KerBlock.lean ====
/-
  What one grid point of each kernel call stores, read at an entry of its 5000-row block.

  Both calls run the same body on a block of 5000 nodes: add the node rows and the aggregated neighbour rows,
  multiply by the first weight matrix, add the first bias row, clamp below at zero, multiply by the second weight
  matrix, add the second bias row. The first call clamps once more at the end, the second does not; the first call
  reads its node rows as f32 and the second as bf16. At the ideal values a change of float format is the identity and
  a matrix product into a zero accumulator is the plain sum of products, so entry `(r, q)` of the stored block is
  `denseRow` of row `r` of the two inputs' sum (clamped, for the first call).
-/
import proofs.«177419_j37426345017678_2_alg».proof.Proof.Gen.KernelIdeal.Skeleton
import proofs.«177419_j37426345017678_2_alg».proof.Proof.DenseRow
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx Cert.Gin
open scoped BigOperators

/-! ## The two matrix products at an entry -/

/-! The operand coordinates of each product: the row comes from the output index, the column from the output index,
    and the shared coordinate from the contraction index. -/

theorem lhsA_0 (i : S5000x16.Idx) (c : dot_S5000x32_S32x16_S5000x16_1_0_0_1_n_n.contr.Idx) : (dot_S5000x32_S32x16_S5000x16_1_0_0_1_n_n.lhsIdx i c 0).val = (i 0).val := by
  unfold DotDims.lhsIdx
  rw [dif_neg (show ¬(0 : Fin S5000x32.rank) ∈ dot_S5000x32_S32x16_S5000x16_1_0_0_1_n_n.lhsBatch by decide), dif_pos (show (0 : Fin S5000x32.rank) ∈ dot_S5000x32_S32x16_S5000x16_1_0_0_1_n_n.lhsNonContracting by decide)]
  rfl
theorem lhsA_1 (i : S5000x16.Idx) (c : dot_S5000x32_S32x16_S5000x16_1_0_0_1_n_n.contr.Idx) : (dot_S5000x32_S32x16_S5000x16_1_0_0_1_n_n.lhsIdx i c 1).val = (c ⟨0, by decide⟩).val :=
  dot_S5000x32_S32x16_S5000x16_1_0_0_1_n_n.lhsIdx_val_of_single rfl i c
theorem rhsA_0 (i : S5000x16.Idx) (c : dot_S5000x32_S32x16_S5000x16_1_0_0_1_n_n.contr.Idx) : (dot_S5000x32_S32x16_S5000x16_1_0_0_1_n_n.rhsIdx i c 0).val = (c ⟨0, by decide⟩).val :=
  dot_S5000x32_S32x16_S5000x16_1_0_0_1_n_n.rhsIdx_val_of_single rfl i c
theorem rhsA_1 (i : S5000x16.Idx) (c : dot_S5000x32_S32x16_S5000x16_1_0_0_1_n_n.contr.Idx) : (dot_S5000x32_S32x16_S5000x16_1_0_0_1_n_n.rhsIdx i c 1).val = (i 1).val := by
  unfold DotDims.rhsIdx
  rw [dif_neg (show ¬(1 : Fin S32x16.rank) ∈ dot_S5000x32_S32x16_S5000x16_1_0_0_1_n_n.rhsBatch by decide), dif_pos (show (1 : Fin S32x16.rank) ∈ dot_S5000x32_S32x16_S5000x16_1_0_0_1_n_n.rhsNonContracting by decide)]
  rfl

theorem lhsB_0 (i : S5000x32.Idx) (c : dot_S5000x16_S16x32_S5000x32_1_0_0_1_n_n.contr.Idx) : (dot_S5000x16_S16x32_S5000x32_1_0_0_1_n_n.lhsIdx i c 0).val = (i 0).val := by
  unfold DotDims.lhsIdx
  rw [dif_neg (show ¬(0 : Fin S5000x16.rank) ∈ dot_S5000x16_S16x32_S5000x32_1_0_0_1_n_n.lhsBatch by decide), dif_pos (show (0 : Fin S5000x16.rank) ∈ dot_S5000x16_S16x32_S5000x32_1_0_0_1_n_n.lhsNonContracting by decide)]
  rfl
theorem lhsB_1 (i : S5000x32.Idx) (c : dot_S5000x16_S16x32_S5000x32_1_0_0_1_n_n.contr.Idx) : (dot_S5000x16_S16x32_S5000x32_1_0_0_1_n_n.lhsIdx i c 1).val = (c ⟨0, by decide⟩).val :=
  dot_S5000x16_S16x32_S5000x32_1_0_0_1_n_n.lhsIdx_val_of_single rfl i c
theorem rhsB_0 (i : S5000x32.Idx) (c : dot_S5000x16_S16x32_S5000x32_1_0_0_1_n_n.contr.Idx) : (dot_S5000x16_S16x32_S5000x32_1_0_0_1_n_n.rhsIdx i c 0).val = (c ⟨0, by decide⟩).val :=
  dot_S5000x16_S16x32_S5000x32_1_0_0_1_n_n.rhsIdx_val_of_single rfl i c
theorem rhsB_1 (i : S5000x32.Idx) (c : dot_S5000x16_S16x32_S5000x32_1_0_0_1_n_n.contr.Idx) : (dot_S5000x16_S16x32_S5000x32_1_0_0_1_n_n.rhsIdx i c 1).val = (i 1).val := by
  unfold DotDims.rhsIdx
  rw [dif_neg (show ¬(1 : Fin S16x32.rank) ∈ dot_S5000x16_S16x32_S5000x32_1_0_0_1_n_n.rhsBatch by decide), dif_pos (show (1 : Fin S16x32.rank) ∈ dot_S5000x16_S16x32_S5000x32_1_0_0_1_n_n.rhsNonContracting by decide)]
  rfl

/-- A [5000, 32] by [32, 16] product into a zero accumulator, at `(r, k)`: `∑ l, lhs (r, l) · rhs (l, k)`. -/
theorem mmA_apply {φ₁ φ₂ : FTy} (lhs : FVec Ideal S5000x32 φ₁) (rhs : FVec Ideal S32x16 φ₂) (r : Fin 5000) (k : Fin 16) :
    matmul dot_S5000x32_S32x16_S5000x16_1_0_0_1_n_n none lhs rhs (constant S5000x16 .f32 0x00000000#32) (ix2 r k)
      = ∑ l : Fin 32, lhs (ix2 r l) * rhs (ix2 l k) := by
  simp only [matmul]
  rw [Ideal.matmul_constant_zero_apply, ← Equiv.sum_comp (contrEquiv1 dot_S5000x32_S32x16_S5000x16_1_0_0_1_n_n 32 rfl rfl).symm]
  refine Finset.sum_congr rfl fun l _ => ?_
  have hc := contrEquiv1_symm_val dot_S5000x32_S32x16_S5000x16_1_0_0_1_n_n 32 rfl rfl l
  have el : dot_S5000x32_S32x16_S5000x16_1_0_0_1_n_n.lhsIdx (ix2 r k) ((contrEquiv1 dot_S5000x32_S32x16_S5000x16_1_0_0_1_n_n 32 rfl rfl).symm l) = ix2 r l :=
    funext fun a => Fin.ext (by
      match a with
      | ⟨0, _⟩ => exact lhsA_0 _ _
      | ⟨1, _⟩ => exact (lhsA_1 _ _).trans hc)
  have er : dot_S5000x32_S32x16_S5000x16_1_0_0_1_n_n.rhsIdx (ix2 r k) ((contrEquiv1 dot_S5000x32_S32x16_S5000x16_1_0_0_1_n_n 32 rfl rfl).symm l) = ix2 l k :=
    funext fun a => Fin.ext (by
      match a with
      | ⟨0, _⟩ => exact (rhsA_0 _ _).trans hc
      | ⟨1, _⟩ => exact rhsA_1 _ _)
  rw [el, er]

/-- A [5000, 16] by [16, 32] product into a zero accumulator, at `(r, q)`: `∑ k, lhs (r, k) · rhs (k, q)`. -/
theorem mmB_apply {φ₁ φ₂ : FTy} (lhs : FVec Ideal S5000x16 φ₁) (rhs : FVec Ideal S16x32 φ₂) (r : Fin 5000) (q : Fin 32) :
    matmul dot_S5000x16_S16x32_S5000x32_1_0_0_1_n_n none lhs rhs (constant S5000x32 .f32 0x00000000#32) (ix2 r q)
      = ∑ k : Fin 16, lhs (ix2 r k) * rhs (ix2 k q) := by
  simp only [matmul]
  rw [Ideal.matmul_constant_zero_apply, ← Equiv.sum_comp (contrEquiv1 dot_S5000x16_S16x32_S5000x32_1_0_0_1_n_n 16 rfl rfl).symm]
  refine Finset.sum_congr rfl fun k _ => ?_
  have hc := contrEquiv1_symm_val dot_S5000x16_S16x32_S5000x32_1_0_0_1_n_n 16 rfl rfl k
  have el : dot_S5000x16_S16x32_S5000x32_1_0_0_1_n_n.lhsIdx (ix2 r q) ((contrEquiv1 dot_S5000x16_S16x32_S5000x32_1_0_0_1_n_n 16 rfl rfl).symm k) = ix2 r k :=
    funext fun a => Fin.ext (by
      match a with
      | ⟨0, _⟩ => exact lhsB_0 _ _
      | ⟨1, _⟩ => exact (lhsB_1 _ _).trans hc)
  have er : dot_S5000x16_S16x32_S5000x32_1_0_0_1_n_n.rhsIdx (ix2 r q) ((contrEquiv1 dot_S5000x16_S16x32_S5000x32_1_0_0_1_n_n 16 rfl rfl).symm k) = ix2 k q :=
    funext fun a => Fin.ext (by
      match a with
      | ⟨0, _⟩ => exact (rhsB_0 _ _).trans hc
      | ⟨1, _⟩ => exact rhsB_1 _ _)
  rw [el, er]

/-! ## The two layers at an entry, over any input vectors -/

/-- The hidden layer of the body at `(r, k)` is hidden unit `k` of row `r` of its input. -/
theorem hidden_apply (u : FVec Ideal S5000x32 .f32) (Wa : Vec Ideal S32x16 .f32) (b : Vec Ideal S1x16 .f32) (r : Fin 5000) (k : Fin 16) :
    (maximumf (addf (matmul dot_S5000x32_S32x16_S5000x16_1_0_0_1_n_n none (truncf .bf16 u bitsLt_bf16_f32) (truncf .bf16 Wa bitsLt_bf16_f32) (constant S5000x16 .f32 0x00000000#32))
        (broadcastTo S5000x16 (shapeCast S1x16 b shapeCasts_S1x16_S1x16) broadcasts_S1x16_S5000x16))
      (broadcast S5000x16 (Scalar.ofBits (F := Ideal) .f32 0x00000000#32))) (ix2 r k)
      = hidden (fun l => u (ix2 r l)) Wa (fun k' => b (ix2 (0 : Fin 1) k')) k := by
  rw [maximumf_apply, addf_apply, mmA_apply, shapeCast_self, broadcastTo_1b_ab_apply, broadcast_apply]
  rfl

/-- The output layer of the body at `(r, q)`: `∑ k, t (r, k) · Wb (k, q) + b (0, q)`. -/
theorem outer_apply (t : FVec Ideal S5000x16 .f32) (Wb : Vec Ideal S16x32 .f32) (b : Vec Ideal S1x32 .f32) (r : Fin 5000) (q : Fin 32) :
    (addf (matmul dot_S5000x16_S16x32_S5000x32_1_0_0_1_n_n none (truncf .bf16 t bitsLt_bf16_f32) (truncf .bf16 Wb bitsLt_bf16_f32) (constant S5000x32 .f32 0x00000000#32))
        (broadcastTo S5000x32 (shapeCast S1x32 b shapeCasts_S1x32_S1x32) broadcasts_S1x32_S5000x32)) (ix2 r q)
      = (∑ k : Fin 16, t (ix2 r k) * Wb (ix2 k q)) + b (ix2 (0 : Fin 1) q) := by
  rw [addf_apply, mmB_apply, shapeCast_self, broadcastTo_1b_ab_apply]
  rfl

/-! ## The stored blocks -/

/-- The first call's stored block at `(r, q)`: the perceptron on row `r` of `v0 + v1`, clamped below at zero. -/
theorem pay0_apply (v0 v1 : Vec Ideal S5000x32 .f32) (v5 : Vec Ideal S32x16 .f32) (v8 : Vec Ideal S1x16 .f32)
    (v15 : Vec Ideal S16x32 .f32) (v18 : Vec Ideal S1x32 .f32) (r : Fin 5000) (q : Fin 32) :
    k0_pay1 (F := Ideal) v0 v1 v5 v8 v15 v18 (ix2 r q)
      = max (denseRow (fun l => v0 (ix2 r l) + v1 (ix2 r l)) v5 (fun k => v8 (ix2 (0 : Fin 1) k)) v15 (fun q' => v18 (ix2 (0 : Fin 1) q')) q) thr := by
  unfold k0_pay1
  rw [truncf_apply, maximumf_apply, outer_apply, broadcast_apply]
  unfold denseRow
  refine congrArg₂ max (congrArg₂ (· + ·) (Finset.sum_congr rfl fun k _ => ?_) rfl) rfl
  rw [hidden_apply, shapeCast_self]
  rfl

/-- The second call's stored block at `(r, q)`: the perceptron on row `r` of `v0 + v3`. -/
theorem pay1_apply (v0 : Vec Ideal S5000x32 .bf16) (v3 : Vec Ideal S5000x32 .f32) (v7 : Vec Ideal S32x16 .f32) (v10 : Vec Ideal S1x16 .f32)
    (v17 : Vec Ideal S16x32 .f32) (v20 : Vec Ideal S1x32 .f32) (r : Fin 5000) (q : Fin 32) :
    k1_pay1 (F := Ideal) v0 v3 v7 v10 v17 v20 (ix2 r q)
      = denseRow (fun l => v0 (ix2 r l) + v3 (ix2 r l)) v7 (fun k => v10 (ix2 (0 : Fin 1) k)) v17 (fun q' => v20 (ix2 (0 : Fin 1) q')) q := by
  unfold k1_pay1
  rw [outer_apply]
  unfold denseRow
  refine congrArg₂ (· + ·) (Finset.sum_congr rfl fun k _ => ?_) rfl
  rw [hidden_apply, shapeCast_self, shapeCast_self]
  rfl

end Cert.KernelIdeal.Block

end
-- ==== Proof.KerArray.lean ====
/-
  From blocks to arrays: what each kernel call leaves in its whole output array.

  Each call walks 20 grid points; point `t` reads rows 5000·t … 5000·t + 4999 of the node features and of the
  aggregate, reads the weight matrices and bias rows whole, and writes the same 5000 rows of the output. Since what a
  point stores depends on its rows only, the stored block is block `t` of ONE function of the whole input arrays — the
  layer, row by row — and since the 20 blocks cover all 100000 rows, the output array ends equal to that function.
  Everything is stated for arbitrary contents `V` of the device's buffers at the moment the call is entered.
-/
import proofs.«177419_j37426345017678_2_alg».proof.Proof.Gen.KernelIdeal.Frame
import proofs.«177419_j37426345017678_2_alg».proof.Proof.KerBlock
import Idealize.ShloMosaic.Lib.Pipeline.Value

noncomputable section

namespace Cert.KernelIdeal.Arrays

open Cert.KernelIdeal Cert.KernelIdeal.Gen Cert.KernelIdeal.Block Cert.Gin
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Kernel call 0 -/

/-- The printed block-index maps of call 0, decided once over its 20 grid points: the node-row windows (the node
    features, the aggregate and the output) are at block `t` of the rows and block 0 of the channels; the weight and
    bias windows are always at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Every block of 5000 rows is some grid point's output block. -/
theorem idx_onto0 : ∀ b : Fin 20, ∃ t : Fin cfg0.N, win0_6.index t = ![b.val, 0] :=
  (by decide +kernel : ∀ b : Fin 20, ∃ t : Fin grid0.N, win0_6.index t = ![b.val, 0])

/-- What grid point `t` of call 0 writes back is block `t` of one whole-array function of the arrays the call finds:
    the layer with its ReLU of the node features and the aggregate, row by row. -/
theorem flushed0_eq (c : Dev nD) (t : Fin cfg0.N) :
    (dat0 V c).flushed 6 t = ((cfg0.win 6).blk t).view.read (Elt Ideal) (layerRelu (V c main_arg0) (V c main_v15) (V c main_arg2) (fun k => V c main_v16 (ix2 (0 : Fin 1) k)) (V c main_arg4) (fun q => V c main_v17 (ix2 (0 : Fin 1) q))) := by
  show (cfg0.win 6).cut (grid0.coords t) ((dat0 V c).after 6 t) = _
  rw [after0_6]
  unfold out0_6
  rw [View.canon_unit_zero hz]
  simp only [View.ld_unit_zero (S := S5000x32) hz, View.ld_unit_zero (S := S32x16) hz, View.ld_unit_zero (S := S1x16) hz,
    View.ld_unit_zero (S := S16x32) hz, View.ld_unit_zero (S := S1x32) hz]
  obtain ⟨e00, e01, e10, e11, e20, e21, e30, e31, e40, e41, e50, e51, e60, e61⟩ := idx_facts0 t
  funext y
  obtain ⟨r, q, rfl⟩ : ∃ (r : Fin 5000) (q : Fin 32), y = ix2 r q := ⟨y 0, y 1, eq_ix2 y⟩
  refine (pay0_apply (iblk0 V c 0 t) (iblk0 V c 1 t) (iblk0 V c 2 t) (iblk0 V c 3 t) (iblk0 V c 4 t) (iblk0 V c 5 t) r q).trans ?_
  have hx : ∀ l : Fin 32, iblk0 V c 0 t (ix2 r l) = V c main_arg0 (ix2 ((((cfg0.win 6).blk t).view.emb (ix2 r q)) 0) l) := fun l => by
    show V c main_arg0 (((cfg0.win 0).blk t).view.emb (ix2 r l)) = _
    refine congrArg _ (funext fun a => Fin.ext ?_)
    match a with
    | ⟨0, _⟩ => show win0_0.index t (0 : Fin 2) * 5000 + 1 * r.val = win0_6.index t (0 : Fin 2) * 5000 + 1 * r.val; omega
    | ⟨1, _⟩ => show win0_0.index t (1 : Fin 2) * 32 + 1 * l.val = l.val; omega
  have hagg : ∀ l : Fin 32, iblk0 V c 1 t (ix2 r l) = V c main_v15 (ix2 ((((cfg0.win 6).blk t).view.emb (ix2 r q)) 0) l) := fun l => by
    show V c main_v15 (((cfg0.win 1).blk t).view.emb (ix2 r l)) = _
    refine congrArg _ (funext fun a => Fin.ext ?_)
    match a with
    | ⟨0, _⟩ => show win0_1.index t (0 : Fin 2) * 5000 + 1 * r.val = win0_6.index t (0 : Fin 2) * 5000 + 1 * r.val; omega
    | ⟨1, _⟩ => show win0_1.index t (1 : Fin 2) * 32 + 1 * l.val = l.val; omega
  have hWa : iblk0 V c 2 t = V c main_arg2 := funext fun z => by
    show V c main_arg2 (((cfg0.win 2).blk t).view.emb z) = _
    refine congrArg _ (funext fun a => Fin.ext ?_)
    match a with
    | ⟨0, _⟩ => show win0_2.index t (0 : Fin 2) * 32 + 1 * (z 0).val = (z 0).val; omega
    | ⟨1, _⟩ => show win0_2.index t (1 : Fin 2) * 16 + 1 * (z 1).val = (z 1).val; omega
  have hba : ∀ k : Fin 16, iblk0 V c 3 t (ix2 (0 : Fin 1) k) = V c main_v16 (ix2 (0 : Fin 1) k) := fun k => by
    show V c main_v16 (((cfg0.win 3).blk t).view.emb (ix2 (0 : Fin 1) k)) = _
    refine congrArg _ (funext fun a => Fin.ext ?_)
    match a with
    | ⟨0, _⟩ => show win0_3.index t (0 : Fin 2) * 1 + 1 * 0 = 0; omega
    | ⟨1, _⟩ => show win0_3.index t (1 : Fin 2) * 16 + 1 * k.val = k.val; omega
  have hWb : iblk0 V c 4 t = V c main_arg4 := funext fun z => by
    show V c main_arg4 (((cfg0.win 4).blk t).view.emb z) = _
    refine congrArg _ (funext fun a => Fin.ext ?_)
    match a with
    | ⟨0, _⟩ => show win0_4.index t (0 : Fin 2) * 16 + 1 * (z 0).val = (z 0).val; omega
    | ⟨1, _⟩ => show win0_4.index t (1 : Fin 2) * 32 + 1 * (z 1).val = (z 1).val; omega
  have hbb : ∀ q' : Fin 32, iblk0 V c 5 t (ix2 (0 : Fin 1) q') = V c main_v17 (ix2 (0 : Fin 1) q') := fun q' => by
    show V c main_v17 (((cfg0.win 5).blk t).view.emb (ix2 (0 : Fin 1) q')) = _
    refine congrArg _ (funext fun a => Fin.ext ?_)
    match a with
    | ⟨0, _⟩ => show win0_5.index t (0 : Fin 2) * 1 + 1 * 0 = 0; omega
    | ⟨1, _⟩ => show win0_5.index t (1 : Fin 2) * 32 + 1 * q'.val = q'.val; omega
  have hq : q = (((cfg0.win 6).blk t).view.emb (ix2 r q)) 1 := Fin.ext (by
    show q.val = win0_6.index t (1 : Fin 2) * 32 + 1 * q.val; omega)
  refine congrArg (max · thr) ?_
  exact denseRow_congr (funext fun l => by rw [hx l, hagg l]) hWa (funext hba) hWb (funext hbb) hq

/-- An index of the output array lies in point `t`'s block iff each coordinate lies in the block's range. -/
theorem mem_blk0 (t : Fin cfg0.N) (i : S100000x32.Idx) :
    i ∈ ((cfg0.win 6).blk t).view.set ↔ ∀ a : Fin 2, win0_6.index t a * S5000x32.size a ≤ (i a).val ∧ (i a).val < win0_6.index t a * S5000x32.size a + S5000x32.size a := by
  show i ∈ ((View.whole main_v18).slice (win0_6.rect t)).set ↔ _
  rw [View.set_slice_whole, Rect.mem_set_unit]
  exact Iff.rfl

/-- The 20 output blocks of 5000 rows cover all 100000 rows: row `p` is in the block of point `p / 5000`. -/
theorem cover0 (i : S100000x32.Idx) : ∃ t : Fin cfg0.N, (cfg0.win 6).flush t = true ∧ i ∈ ((cfg0.win 6).blk t).view.set := by
  have hi0 : (i 0).val < 100000 := (i 0).isLt
  have hi1 : (i 1).val < 32 := (i 1).isLt
  obtain ⟨t, ht⟩ := idx_onto0 ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 32 ≤ (i 1).val ∧ (i 1).val < win0_6.index t (1 : Fin 2) * 32 + 32; omega

/-- The output array after call 0: the layer with its ReLU of the arrays the call finds. -/
theorem final0 (c : Dev nD) : (dat0 V c).arrAt 6 cfg0.N = layerRelu (V c main_arg0) (V c main_v15) (V c main_arg2) (fun k => V c main_v16 (ix2 (0 : Fin 1) k)) (V c main_arg4) (fun q => V c main_v17 (ix2 (0 : Fin 1) q)) :=
  (dat0 V c).arrAt_eq_of_cover 6 _ (fun t _ => flushed0_eq V c t) (cover0)

/-! ## Kernel call 1 -/

/-- The printed block-index maps of call 1, decided once over its 20 grid points: the node-row windows (the node
    features, the aggregate and the output) are at block `t` of the rows and block 0 of the channels; the weight and
    bias windows are always at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Every block of 5000 rows is some grid point's output block. -/
theorem idx_onto1 : ∀ b : Fin 20, ∃ t : Fin cfg1.N, win1_6.index t = ![b.val, 0] :=
  (by decide +kernel : ∀ b : Fin 20, ∃ t : Fin grid1.N, win1_6.index t = ![b.val, 0])

/-- What grid point `t` of call 1 writes back is block `t` of one whole-array function of the arrays the call finds:
    the layer of the node features and the aggregate, row by row. -/
theorem flushed1_eq (c : Dev nD) (t : Fin cfg1.N) :
    (dat1 V c).flushed 6 t = ((cfg1.win 6).blk t).view.read (Elt Ideal) (layer (V c main_v18) (V c main_v29) (V c main_arg6) (fun k => V c main_v30 (ix2 (0 : Fin 1) k)) (V c main_arg8) (fun q => V c main_v31 (ix2 (0 : Fin 1) q))) := by
  show (cfg1.win 6).cut (grid1.coords t) ((dat1 V c).after 6 t) = _
  rw [after1_6]
  unfold out1_6
  rw [View.canon_unit_zero hz]
  simp only [View.ld_unit_zero (S := S5000x32) hz, View.ld_unit_zero (S := S32x16) hz, View.ld_unit_zero (S := S1x16) hz,
    View.ld_unit_zero (S := S16x32) hz, View.ld_unit_zero (S := S1x32) hz]
  obtain ⟨e00, e01, e10, e11, e20, e21, e30, e31, e40, e41, e50, e51, e60, e61⟩ := idx_facts1 t
  funext y
  obtain ⟨r, q, rfl⟩ : ∃ (r : Fin 5000) (q : Fin 32), y = ix2 r q := ⟨y 0, y 1, eq_ix2 y⟩
  refine (pay1_apply (iblk1 V c 0 t) (iblk1 V c 1 t) (iblk1 V c 2 t) (iblk1 V c 3 t) (iblk1 V c 4 t) (iblk1 V c 5 t) r q).trans ?_
  have hx : ∀ l : Fin 32, iblk1 V c 0 t (ix2 r l) = V c main_v18 (ix2 ((((cfg1.win 6).blk t).view.emb (ix2 r q)) 0) l) := fun l => by
    show V c main_v18 (((cfg1.win 0).blk t).view.emb (ix2 r l)) = _
    refine congrArg _ (funext fun a => Fin.ext ?_)
    match a with
    | ⟨0, _⟩ => show win1_0.index t (0 : Fin 2) * 5000 + 1 * r.val = win1_6.index t (0 : Fin 2) * 5000 + 1 * r.val; omega
    | ⟨1, _⟩ => show win1_0.index t (1 : Fin 2) * 32 + 1 * l.val = l.val; omega
  have hagg : ∀ l : Fin 32, iblk1 V c 1 t (ix2 r l) = V c main_v29 (ix2 ((((cfg1.win 6).blk t).view.emb (ix2 r q)) 0) l) := fun l => by
    show V c main_v29 (((cfg1.win 1).blk t).view.emb (ix2 r l)) = _
    refine congrArg _ (funext fun a => Fin.ext ?_)
    match a with
    | ⟨0, _⟩ => show win1_1.index t (0 : Fin 2) * 5000 + 1 * r.val = win1_6.index t (0 : Fin 2) * 5000 + 1 * r.val; omega
    | ⟨1, _⟩ => show win1_1.index t (1 : Fin 2) * 32 + 1 * l.val = l.val; omega
  have hWa : iblk1 V c 2 t = V c main_arg6 := funext fun z => by
    show V c main_arg6 (((cfg1.win 2).blk t).view.emb z) = _
    refine congrArg _ (funext fun a => Fin.ext ?_)
    match a with
    | ⟨0, _⟩ => show win1_2.index t (0 : Fin 2) * 32 + 1 * (z 0).val = (z 0).val; omega
    | ⟨1, _⟩ => show win1_2.index t (1 : Fin 2) * 16 + 1 * (z 1).val = (z 1).val; omega
  have hba : ∀ k : Fin 16, iblk1 V c 3 t (ix2 (0 : Fin 1) k) = V c main_v30 (ix2 (0 : Fin 1) k) := fun k => by
    show V c main_v30 (((cfg1.win 3).blk t).view.emb (ix2 (0 : Fin 1) k)) = _
    refine congrArg _ (funext fun a => Fin.ext ?_)
    match a with
    | ⟨0, _⟩ => show win1_3.index t (0 : Fin 2) * 1 + 1 * 0 = 0; omega
    | ⟨1, _⟩ => show win1_3.index t (1 : Fin 2) * 16 + 1 * k.val = k.val; omega
  have hWb : iblk1 V c 4 t = V c main_arg8 := funext fun z => by
    show V c main_arg8 (((cfg1.win 4).blk t).view.emb z) = _
    refine congrArg _ (funext fun a => Fin.ext ?_)
    match a with
    | ⟨0, _⟩ => show win1_4.index t (0 : Fin 2) * 16 + 1 * (z 0).val = (z 0).val; omega
    | ⟨1, _⟩ => show win1_4.index t (1 : Fin 2) * 32 + 1 * (z 1).val = (z 1).val; omega
  have hbb : ∀ q' : Fin 32, iblk1 V c 5 t (ix2 (0 : Fin 1) q') = V c main_v31 (ix2 (0 : Fin 1) q') := fun q' => by
    show V c main_v31 (((cfg1.win 5).blk t).view.emb (ix2 (0 : Fin 1) q')) = _
    refine congrArg _ (funext fun a => Fin.ext ?_)
    match a with
    | ⟨0, _⟩ => show win1_5.index t (0 : Fin 2) * 1 + 1 * 0 = 0; omega
    | ⟨1, _⟩ => show win1_5.index t (1 : Fin 2) * 32 + 1 * q'.val = q'.val; omega
  have hq : q = (((cfg1.win 6).blk t).view.emb (ix2 r q)) 1 := Fin.ext (by
    show q.val = win1_6.index t (1 : Fin 2) * 32 + 1 * q.val; omega)
  show _ = layer (V c main_v18) (V c main_v29) (V c main_arg6) (fun k => V c main_v30 (ix2 (0 : Fin 1) k)) (V c main_arg8) (fun q => V c main_v31 (ix2 (0 : Fin 1) q)) (((cfg1.win 6).blk t).view.emb (ix2 r q))
  rw [layer_apply]
  exact denseRow_congr (funext fun l => by rw [hx l, hagg l]) hWa (funext hba) hWb (funext hbb) hq

/-- An index of the output array lies in point `t`'s block iff each coordinate lies in the block's range. -/
theorem mem_blk1 (t : Fin cfg1.N) (i : S100000x32.Idx) :
    i ∈ ((cfg1.win 6).blk t).view.set ↔ ∀ a : Fin 2, win1_6.index t a * S5000x32.size a ≤ (i a).val ∧ (i a).val < win1_6.index t a * S5000x32.size a + S5000x32.size a := by
  show i ∈ ((View.whole main_v32).slice (win1_6.rect t)).set ↔ _
  rw [View.set_slice_whole, Rect.mem_set_unit]
  exact Iff.rfl

/-- The 20 output blocks of 5000 rows cover all 100000 rows: row `p` is in the block of point `p / 5000`. -/
theorem cover1 (i : S100000x32.Idx) : ∃ t : Fin cfg1.N, (cfg1.win 6).flush t = true ∧ i ∈ ((cfg1.win 6).blk t).view.set := by
  have hi0 : (i 0).val < 100000 := (i 0).isLt
  have hi1 : (i 1).val < 32 := (i 1).isLt
  obtain ⟨t, ht⟩ := idx_onto1 ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 32 ≤ (i 1).val ∧ (i 1).val < win1_6.index t (1 : Fin 2) * 32 + 32; omega

/-- The output array after call 1: the layer of the arrays the call finds. -/
theorem final1 (c : Dev nD) : (dat1 V c).arrAt 6 cfg1.N = layer (V c main_v18) (V c main_v29) (V c main_arg6) (fun k => V c main_v30 (ix2 (0 : Fin 1) k)) (V c main_arg8) (fun q => V c main_v31 (ix2 (0 : Fin 1) q)) :=
  (dat1 V c).arrAt_eq_of_cover 6 _ (fun t _ => flushed1_eq V c t) (cover1)

end Cert.KernelIdeal.Arrays

end
-- ==== Proof.RefValue.lean ====
/-
  The reference program's result as two graph layers, index by index.

  The reference computes, twice over, `Linear(ReLU(Linear(h + aggregate h)))` with `stablehlo.dot_general` for the
  two matrix products, and puts a ReLU between the two rounds. At the ideal values a `dot_general` is the plain sum of
  products, so each round is the `layer` function of the node features, the aggregate, the two weight matrices and the
  two bias vectors. The aggregate itself — a gather of the source nodes' rows followed by a scatter-add into the
  destination nodes — is never opened: the second round applies the very same function as the first to different
  features, and the kernel program applies it too.
-/
import proofs.«177419_j37426345017678_2_alg».proof.Proof.Gen.ReferenceIdeal.Read
import proofs.«177419_j37426345017678_2_alg».proof.Proof.DenseRow

noncomputable section

namespace Cert.ReferenceIdeal.RefValue

open Cert.ReferenceIdeal Cert.ReferenceIdeal.Gen Cert.ReferenceIdeal.Read
open Idealize.ShloMosaic Idealize.ShloMosaic.ValueIdx Cert.Gin
open scoped BigOperators

variable (x0 : (⟨S100000x32, .f32⟩ : BufTy).Contents (Elt Ideal)) (x1 : (⟨S2x2500000, .i32⟩ : BufTy).Contents (Elt Ideal))
  (x2 : (⟨S32x16, .f32⟩ : BufTy).Contents (Elt Ideal)) (x3 : (⟨S16, .f32⟩ : BufTy).Contents (Elt Ideal))
  (x4 : (⟨S16x32, .f32⟩ : BufTy).Contents (Elt Ideal)) (x5 : (⟨S32, .f32⟩ : BufTy).Contents (Elt Ideal))
  (x6 : (⟨S32x16, .f32⟩ : BufTy).Contents (Elt Ideal)) (x7 : (⟨S16, .f32⟩ : BufTy).Contents (Elt Ideal))
  (x8 : (⟨S16x32, .f32⟩ : BufTy).Contents (Elt Ideal)) (x9 : (⟨S32, .f32⟩ : BufTy).Contents (Elt Ideal))

/-- The neighbour sum: for every node, the sum of the feature rows of the nodes with an edge into it (the reference's
    first gather and scatter-add, as one function of the features and the edge list). -/
abbrev aggregate (feat : (⟨S100000x32, .f32⟩ : BufTy).Contents (Elt Ideal)) (edges : (⟨S2x2500000, .i32⟩ : BufTy).Contents (Elt Ideal)) :
    (⟨S100000x32, .f32⟩ : BufTy).Contents (Elt Ideal) :=
  val_main_v13 (F := Ideal) feat edges

/-! ## The first round -/

/-- After the first round and the ReLU between the rounds: the layer with its ReLU, of the input features and their
    neighbour sum. -/
theorem round1_eq :
    val_main_v26 (F := Ideal) x0 x1 x2 x3 x4 x5
      = layerRelu x0 (aggregate x0 x1) x2 (fun k => x3 (ix1 k)) x4 (fun q => x5 (ix1 q)) := by
  funext j
  obtain ⟨p, q, rfl⟩ : ∃ (p : Fin 100000) (q : Fin 32), j = ix2 p q := ⟨j 0, j 1, eq_ix2 j⟩
  show _ = max (denseRow (fun l => x0 (ix2 p l) + val_main_v13 (F := Ideal) x0 x1 (ix2 p l)) x2 (fun k => x3 (ix1 k)) x4 (fun q' => x5 (ix1 q')) q) thr
  rw [val_main_v26_apply, val_main_v24_apply, val_main_v21_apply, val_main_v23_apply, val_main_v22_apply, val_main_v25_apply, val_main_cst_2_apply]
  unfold denseRow
  refine congrArg₂ max (congrArg₂ (· + ·) (Finset.sum_congr rfl fun k _ => ?_) ?_) rfl
  · have e1 : lidx_main_v21 (ix2 p q) k = ix2 p k := funext fun a => Fin.ext (by match a with | ⟨0, _⟩ => rfl | ⟨1, _⟩ => rfl)
    have e2 : ridx_main_v21 (ix2 p q) k = ix2 k q := funext fun a => Fin.ext (by match a with | ⟨0, _⟩ => rfl | ⟨1, _⟩ => rfl)
    rw [e1, e2, val_main_v20_apply, val_main_v18_apply, val_main_v15_apply, val_main_v17_apply, val_main_v16_apply, val_main_v19_apply, val_main_cst_1_apply]
    unfold Cert.Gin.hidden
    refine congrArg (· * x4 (ix2 k q)) (congrArg₂ max (congrArg₂ (· + ·) (Finset.sum_congr rfl fun l _ => ?_) ?_) rfl)
    · have e3 : lidx_main_v15 (ix2 p k) l = ix2 p l := funext fun a => Fin.ext (by match a with | ⟨0, _⟩ => rfl | ⟨1, _⟩ => rfl)
      have e4 : ridx_main_v15 (ix2 p k) l = ix2 l k := funext fun a => Fin.ext (by match a with | ⟨0, _⟩ => rfl | ⟨1, _⟩ => rfl)
      rw [e3, e4, val_main_v14_apply]
      rfl
    · exact congrArg x3 (funext fun a => Fin.ext (by match a with | ⟨0, _⟩ => rfl))
  · exact congrArg x5 (funext fun a => Fin.ext (by match a with | ⟨0, _⟩ => rfl))

/-! ## The second round -/

/-- The second round's neighbour sum is the first round's function, applied to the first round's output. -/
theorem aggregate2_eq :
    val_main_v36 (F := Ideal) x0 x1 x2 x3 x4 x5 = aggregate (val_main_v26 (F := Ideal) x0 x1 x2 x3 x4 x5) x1 := rfl

/-- The program's result: the layer (no ReLU after it) of the first round's output and its neighbour sum. -/
theorem round2_eq :
    val_main_v47 (F := Ideal) x0 x1 x2 x3 x4 x5 x6 x7 x8 x9
      = layer (val_main_v26 (F := Ideal) x0 x1 x2 x3 x4 x5) (val_main_v36 (F := Ideal) x0 x1 x2 x3 x4 x5) x6 (fun k => x7 (ix1 k)) x8 (fun q => x9 (ix1 q)) := by
  funext j
  obtain ⟨p, q, rfl⟩ : ∃ (p : Fin 100000) (q : Fin 32), j = ix2 p q := ⟨j 0, j 1, eq_ix2 j⟩
  show _ = denseRow (fun l => val_main_v26 (F := Ideal) x0 x1 x2 x3 x4 x5 (ix2 p l) + val_main_v36 (F := Ideal) x0 x1 x2 x3 x4 x5 (ix2 p l)) x6 (fun k => x7 (ix1 k)) x8 (fun q' => x9 (ix1 q')) q
  rw [val_main_v47_apply, val_main_v44_apply, val_main_v46_apply, val_main_v45_apply]
  unfold denseRow
  refine congrArg₂ (· + ·) (Finset.sum_congr rfl fun k _ => ?_) ?_
  · have e1 : lidx_main_v44 (ix2 p q) k = ix2 p k := funext fun a => Fin.ext (by match a with | ⟨0, _⟩ => rfl | ⟨1, _⟩ => rfl)
    have e2 : ridx_main_v44 (ix2 p q) k = ix2 k q := funext fun a => Fin.ext (by match a with | ⟨0, _⟩ => rfl | ⟨1, _⟩ => rfl)
    rw [e1, e2, val_main_v43_apply, val_main_v41_apply, val_main_v38_apply, val_main_v40_apply, val_main_v39_apply, val_main_v42_apply, val_main_cst_6_apply]
    unfold Cert.Gin.hidden
    refine congrArg (· * x8 (ix2 k q)) (congrArg₂ max (congrArg₂ (· + ·) (Finset.sum_congr rfl fun l _ => ?_) ?_) rfl)
    · have e3 : lidx_main_v38 (ix2 p k) l = ix2 p l := funext fun a => Fin.ext (by match a with | ⟨0, _⟩ => rfl | ⟨1, _⟩ => rfl)
      have e4 : ridx_main_v38 (ix2 p k) l = ix2 l k := funext fun a => Fin.ext (by match a with | ⟨0, _⟩ => rfl | ⟨1, _⟩ => rfl)
      rw [e3, e4, val_main_v37_apply]
      rfl
    · exact congrArg x7 (funext fun a => Fin.ext (by match a with | ⟨0, _⟩ => rfl))
  · exact congrArg x9 (funext fun a => Fin.ext (by match a with | ⟨0, _⟩ => rfl))

/-! ## The whole network -/

/-- The output of the first round and the ReLU after it. -/
def round1 : (⟨2, ![100000, 32]⟩ : Shape).Idx → EReal :=
  layerRelu x0 (aggregate x0 x1) x2 (fun k => x3 (ix1 k)) x4 (fun q => x5 (ix1 q))

/-- The network's output as a function of its ten arguments: two rounds of "add the neighbour sum, then
    Linear → ReLU → Linear", a ReLU between them. -/
def ginOut : (⟨2, ![100000, 32]⟩ : Shape).Idx → EReal :=
  layer (round1 x0 x1 x2 x3 x4 x5) (aggregate (round1 x0 x1 x2 x3 x4 x5) x1) x6 (fun k => x7 (ix1 k)) x8 (fun q => x9 (ix1 q))

/-- The reference's result is the network's output. -/
theorem result_eq : val_main_v47 (F := Ideal) x0 x1 x2 x3 x4 x5 x6 x7 x8 x9 = ginOut x0 x1 x2 x3 x4 x5 x6 x7 x8 x9 := by
  rw [round2_eq, aggregate2_eq, round1_eq]
  rfl

end Cert.ReferenceIdeal.RefValue

end
-- ==== Proof.KerValue.lean ====
/-
  The idealized kernel program's result, read back through its four segments to the launch memory.

  The program's last boundary holds, at the result buffer, the second call's output array; that array is the layer of
  what the second call finds in its operand buffers; those hold the first call's output (the node features of the
  second round), their neighbour sum computed by the host operations between the calls, and the second round's
  weights and reshaped biases; the first call's output is in turn the layer with its ReLU of what the first call
  finds: the input features, their neighbour sum computed by the first host operations, the first round's weights and
  reshaped biases. The host's neighbour sum is kept as one function of the features and the two index lists. It is the
  reference's neighbour sum: the kernel program only rounds the gathered rows to bf16 and back, which is the identity
  at the ideal values. A bias reshaped from [n] to [1, n] reads at (0, k) what the bias reads at k.
-/
import proofs.«177419_j37426345017678_2_alg».proof.Proof.Gen.KernelIdeal.Frame
import proofs.«177419_j37426345017678_2_alg».proof.Proof.KerArray
import proofs.«177419_j37426345017678_2_alg».proof.Proof.RefValue
import Idealize.ShloMosaic.Lib.StableHlo.Run
import Idealize.ShloMosaic.Lib.ValueLayout

noncomputable section

namespace Cert.KernelIdeal.HostValue

open Cert.KernelIdeal Cert.KernelIdeal.Gen Cert.KernelIdeal.Arrays Cert.Gin
open Idealize.ShloMosaic Idealize.ShloMosaic.TcCoe Idealize.ShloMosaic.ValueIdx Idealize.SL.Sem Idealize.ShloMosaic.StableHlo

/-! ## The host's neighbour sum as one function -/

/-- The edges' source nodes: row 0 of the edge list. -/
def srcOf (e : (⟨S2x2500000, .i32⟩ : BufTy).Contents (Elt Ideal)) : (⟨S2500000, .i32⟩ : BufTy).Contents (Elt Ideal) :=
  shapeCast _ (extractStridedSlice S1x2500000 ![0, 0] e slices_S2x2500000_S1x2500000_0_0) shapeCasts_S1x2500000_S2500000

/-- The edges' destination nodes: row 1 of the edge list. -/
def dstOf (e : (⟨S2x2500000, .i32⟩ : BufTy).Contents (Elt Ideal)) : (⟨S2500000, .i32⟩ : BufTy).Contents (Elt Ideal) :=
  shapeCast _ (extractStridedSlice S1x2500000 ![1, 0] e slices_S2x2500000_S1x2500000_1_0) shapeCasts_S1x2500000_S2500000

/-- The features rounded to bf16, as the host does before the first gather: the identity at the ideal values. -/
def toBf16 : (⟨S100000x32, .f32⟩ : BufTy).Contents (Elt Ideal) → (⟨S100000x32, .bf16⟩ : BufTy).Contents (Elt Ideal) :=
  fun x => truncf (F := Ideal) (s := S100000x32) (φ := .f32) .bf16 x bitsLt_bf16_f32

theorem toBf16_eq (x : (⟨S100000x32, .f32⟩ : BufTy).Contents (Elt Ideal)) : toBf16 x = x := rfl

/-- The neighbour sum as the kernel program's host operations compute it: gather the source nodes' rows (a negative
    index counted from the end), widen them from bf16 to f32, and add each into its destination node's row of a zero
    array. -/
def aggK (feat : (⟨S100000x32, .bf16⟩ : BufTy).Contents (Elt Ideal)) (s d : (⟨S2500000, .i32⟩ : BufTy).Contents (Elt Ideal)) :
    (⟨S100000x32, .f32⟩ : BufTy).Contents (Elt Ideal) :=
  Host.scatterAdd scatter_S100000x32_S2500000x1_S2500000x32_1_0_0_1
    (broadcastInDim S100000x32 ![] bcast_S_S100000x32 (constant (F := Ideal) S_ .f32 0x00000000#32))
    (broadcastInDim S2500000x1 ![0] bcast_S2500000_S2500000x1_0 d)
    (extf .f32 (Host.gather gather_S100000x32_S2500000x1_S2500000x32_1_0_n_n_0_1_132 feat
      (broadcastInDim S2500000x1 ![0] bcast_S2500000_S2500000x1_0
        (select (cmpi .slt s (broadcastInDim S2500000 ![] bcast_S_S2500000 (constantI S_ 32 0#32)))
          (addi s (broadcastInDim S2500000 ![] bcast_S_S2500000 (constantI S_ 32 100000#32))) s))) bitsLt_bf16_f32)

variable (m : (ℓ : Loc nD τ sig) → Buf (Elt Ideal) ℓ) (ρ : Dev nD → PrngReg) (c : Dev nD)

/-! ## What the first call finds -/

/-- The input features reach the first call as launched. -/
theorem V1_arg0 : V1 m ρ c main_arg0 = (m ((c : Thread nD τ).loc main_arg0)) := by
  show StableHlo.after hostOps0 (W0 m ρ c) (Proc.devRef .tc main_arg0) = _
  after_results
  try rfl

/-- The first weight matrix reaches the first call as launched. -/
theorem V1_arg2 : V1 m ρ c main_arg2 = (m ((c : Thread nD τ).loc main_arg2)) := by
  show StableHlo.after hostOps0 (W0 m ρ c) (Proc.devRef .tc main_arg2) = _
  after_results
  try rfl

/-- The second weight matrix reaches the first call as launched. -/
theorem V1_arg4 : V1 m ρ c main_arg4 = (m ((c : Thread nD τ).loc main_arg4)) := by
  show StableHlo.after hostOps0 (W0 m ρ c) (Proc.devRef .tc main_arg4) = _
  after_results
  try rfl

/-- The first call's aggregate operand is the neighbour sum of the input features. -/
theorem V1_v15 : V1 m ρ c main_v15 = aggK (toBf16 (m ((c : Thread nD τ).loc main_arg0))) (srcOf (m ((c : Thread nD τ).loc main_arg1))) (dstOf (m ((c : Thread nD τ).loc main_arg1))) := by
  show StableHlo.after hostOps0 (W0 m ρ c) (Proc.devRef .tc main_v15) = _
  after_results
  try rfl

/-- The first bias as a [1, 16] row. -/
theorem V1_v16 : V1 m ρ c main_v16 = shapeCast S1x16 (m ((c : Thread nD τ).loc main_arg3)) shapeCasts_S16_S1x16 := by
  show StableHlo.after hostOps0 (W0 m ρ c) (Proc.devRef .tc main_v16) = _
  after_results
  try rfl

/-- The second bias as a [1, 32] row. -/
theorem V1_v17 : V1 m ρ c main_v17 = shapeCast S1x32 (m ((c : Thread nD τ).loc main_arg5)) shapeCasts_S32_S1x32 := by
  show StableHlo.after hostOps0 (W0 m ρ c) (Proc.devRef .tc main_v17) = _
  after_results
  try rfl

/-! ## What the first call leaves, and what passes it by -/

/-- The first call's output array: the first round with its ReLU, of the launch contents. -/
theorem W2_v18 : W2 m ρ c (Proc.devRef .tc main_v18) = (layerRelu (m ((c : Thread nD τ).loc main_arg0)) (aggK (toBf16 (m ((c : Thread nD τ).loc main_arg0))) (srcOf (m ((c : Thread nD τ).loc main_arg1))) (dstOf (m ((c : Thread nD τ).loc main_arg1)))) (m ((c : Thread nD τ).loc main_arg2)) (fun k => shapeCast S1x16 (m ((c : Thread nD τ).loc main_arg3)) shapeCasts_S16_S1x16 (ix2 (0 : Fin 1) k)) (m ((c : Thread nD τ).loc main_arg4)) (fun q => shapeCast S1x32 (m ((c : Thread nD τ).loc main_arg5)) shapeCasts_S32_S1x32 (ix2 (0 : Fin 1) q))) :=
  (W2_arr m ρ c 6).trans ((final0 (V1 m ρ) c).trans (by
    rw [V1_arg0, V1_arg2, V1_arg4, V1_v15, V1_v16, V1_v17]))

/-- The source list passes the first call by. -/
theorem W2_v1 : W2 m ρ c (Proc.devRef .tc main_v1) = (srcOf (m ((c : Thread nD τ).loc main_arg1))) :=
  (W2_of_ne m ρ c main_v1 (by decide)).trans (by
    show StableHlo.after hostOps0 (W0 m ρ c) (Proc.devRef .tc main_v1) = _
    after_results
    try rfl)

/-- The destination list passes the first call by. -/
theorem W2_v3 : W2 m ρ c (Proc.devRef .tc main_v3) = (dstOf (m ((c : Thread nD τ).loc main_arg1))) :=
  (W2_of_ne m ρ c main_v3 (by decide)).trans (by
    show StableHlo.after hostOps0 (W0 m ρ c) (Proc.devRef .tc main_v3) = _
    after_results
    try rfl)

/-- The third weight matrix is as launched. -/
theorem W2_arg6 : W2 m ρ c (Proc.devRef .tc main_arg6) = (m ((c : Thread nD τ).loc main_arg6)) :=
  (W2_of_ne m ρ c main_arg6 (by decide)).trans (by
    show StableHlo.after hostOps0 (W0 m ρ c) (Proc.devRef .tc main_arg6) = _
    after_results
    try rfl)

/-- The third bias is as launched. -/
theorem W2_arg7 : W2 m ρ c (Proc.devRef .tc main_arg7) = (m ((c : Thread nD τ).loc main_arg7)) :=
  (W2_of_ne m ρ c main_arg7 (by decide)).trans (by
    show StableHlo.after hostOps0 (W0 m ρ c) (Proc.devRef .tc main_arg7) = _
    after_results
    try rfl)

/-- The fourth weight matrix is as launched. -/
theorem W2_arg8 : W2 m ρ c (Proc.devRef .tc main_arg8) = (m ((c : Thread nD τ).loc main_arg8)) :=
  (W2_of_ne m ρ c main_arg8 (by decide)).trans (by
    show StableHlo.after hostOps0 (W0 m ρ c) (Proc.devRef .tc main_arg8) = _
    after_results
    try rfl)

/-- The fourth bias is as launched. -/
theorem W2_arg9 : W2 m ρ c (Proc.devRef .tc main_arg9) = (m ((c : Thread nD τ).loc main_arg9)) :=
  (W2_of_ne m ρ c main_arg9 (by decide)).trans (by
    show StableHlo.after hostOps0 (W0 m ρ c) (Proc.devRef .tc main_arg9) = _
    after_results
    try rfl)

/-! ## What the second call finds -/

/-- The second call's node features are the first call's output. -/
theorem V3_v18 : V3 m ρ c main_v18 = W2 m ρ c (Proc.devRef .tc main_v18) := by
  show StableHlo.after hostOps1 (W2 m ρ c) (Proc.devRef .tc main_v18) = _
  after_results
  try rfl

/-- The second call's aggregate operand is the neighbour sum of the first call's output. -/
theorem V3_v29 : V3 m ρ c main_v29 = aggK (W2 m ρ c (Proc.devRef .tc main_v18)) (W2 m ρ c (Proc.devRef .tc main_v1)) (W2 m ρ c (Proc.devRef .tc main_v3)) := by
  show StableHlo.after hostOps1 (W2 m ρ c) (Proc.devRef .tc main_v29) = _
  after_results
  try rfl

/-- The third weight matrix. -/
theorem V3_arg6 : V3 m ρ c main_arg6 = W2 m ρ c (Proc.devRef .tc main_arg6) := by
  show StableHlo.after hostOps1 (W2 m ρ c) (Proc.devRef .tc main_arg6) = _
  after_results
  try rfl

/-- The fourth weight matrix. -/
theorem V3_arg8 : V3 m ρ c main_arg8 = W2 m ρ c (Proc.devRef .tc main_arg8) := by
  show StableHlo.after hostOps1 (W2 m ρ c) (Proc.devRef .tc main_arg8) = _
  after_results
  try rfl

/-- The third bias as a [1, 16] row. -/
theorem V3_v30 : V3 m ρ c main_v30 = shapeCast S1x16 (W2 m ρ c (Proc.devRef .tc main_arg7)) shapeCasts_S16_S1x16 := by
  show StableHlo.after hostOps1 (W2 m ρ c) (Proc.devRef .tc main_v30) = _
  after_results
  try rfl

/-- The fourth bias as a [1, 32] row. -/
theorem V3_v31 : V3 m ρ c main_v31 = shapeCast S1x32 (W2 m ρ c (Proc.devRef .tc main_arg9)) shapeCasts_S32_S1x32 := by
  show StableHlo.after hostOps1 (W2 m ρ c) (Proc.devRef .tc main_v31) = _
  after_results
  try rfl

/-! ## The bridge to the reference's functions -/

/-- The kernel program's neighbour sum is the reference's: the same gather and scatter-add of the same index lists;
    rounding the rows to bf16 and back changes nothing at the ideal values. -/
theorem aggK_eq (feat : (⟨S100000x32, .bf16⟩ : BufTy).Contents (Elt Ideal)) (e : (⟨S2x2500000, .i32⟩ : BufTy).Contents (Elt Ideal)) :
    aggK feat (srcOf e) (dstOf e) = Cert.ReferenceIdeal.RefValue.aggregate feat e := rfl

/-- A bias reshaped to a [1, 16] row reads at (0, k) the bias at k. -/
theorem bias16 (b : (⟨S16, .f32⟩ : BufTy).Contents (Elt Ideal)) :
    (fun k : Fin 16 => shapeCast S1x16 b shapeCasts_S16_S1x16 (ix2 (0 : Fin 1) k)) = fun k => b (ix1 k) :=
  funext fun k => shapeCast_a_1a_apply b shapeCasts_S16_S1x16 0 k

/-- A bias reshaped to a [1, 32] row reads at (0, q) the bias at q. -/
theorem bias32 (b : (⟨S32, .f32⟩ : BufTy).Contents (Elt Ideal)) :
    (fun q : Fin 32 => shapeCast S1x32 b shapeCasts_S32_S1x32 (ix2 (0 : Fin 1) q)) = fun q => b (ix1 q) :=
  funext fun q => shapeCast_a_1a_apply b shapeCasts_S32_S1x32 0 q

/-! ## The result -/

/-- The program's result buffer ends holding the network's output of the launch contents of the ten arguments. -/
theorem result_eq : W4 m ρ c (Proc.devRef .tc main_v32)
    = Cert.ReferenceIdeal.RefValue.ginOut (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) (m ((c : Thread nD τ).loc main_arg9)) :=
  (W4_arr m ρ c 6).trans ((final1 (V3 m ρ) c).trans (by
    rw [V3_v18, V3_v29, V3_arg6, V3_arg8, V3_v30, V3_v31, W2_v1, W2_v3, W2_arg6, W2_arg7, W2_arg8, W2_arg9, W2_v18,
      bias16, bias16, bias32, bias32, aggK_eq, aggK_eq, toBf16_eq]
    rfl))

end Cert.KernelIdeal.HostValue

end
-- ==== Proof.lean ====
/-
  A two-round graph-isomorphism network on 100000 nodes with 32 features and 2500000 edges: each round adds to every
  node's feature row the sum of its in-neighbours' rows and passes the result through Linear(32 → 16) → ReLU →
  Linear(16 → 32); a ReLU sits between the two rounds.

  The kernel program computes the neighbour sums on the host (a gather of the source rows, carried in bf16, and a
  scatter-add into the destination rows) and each round's dense part in a kernel call over 20 blocks of 5000 nodes,
  with bf16 operands to its two matrix products and a bf16 intermediate between the rounds. The reference computes
  everything on the host in f32. At the ideal values — extended reals, exact operations, format changes the identity —
  both are one function of the ten arguments:

    out = layer (h₁, aggregate h₁, W3, b3, W4, b4),   h₁ = ReLU (layer (x, aggregate x, W1, b1, W2, b2)),

  where `layer (h, a, Wa, ba, Wb, bb) (p, q) = ∑ k, max (∑ l, (h (p, l) + a (p, l)) · Wa (l, k) + ba k) 0 · Wb (k, q) + bb q`.
  The two sides' sums run over the same index sets in the same order and the neighbour sum is the same function on
  both sides, so no law of the extended reals beyond `0 + s = s` for the kernel's zero accumulator is used, and the
  inputs' finiteness is never needed.

  The pieces: `DenseRow` states the layer; `KerBlock` reads what a grid point stores at an entry; `KerArray` goes from
  the 20 blocks to the whole output array of each call; `KerRun` is the kernel program's run with its result named;
  `KerValue` reads that result back through the host operations and the two calls to the launch memory; `RefValue`
  reads the reference's result index by index. The frames of the two kernel programs are the generated ones, the
  reference's frame is its generated run, and the idealization rewrote nothing.
-/
import proofs.«177419_j37426345017678_2_alg».proof.Defs
import proofs.«177419_j37426345017678_2_alg».proof.Proof.Gen.Kernel
import proofs.«177419_j37426345017678_2_alg».proof.Proof.Gen.Kernel.Skeleton
import proofs.«177419_j37426345017678_2_alg».proof.Proof.Gen.Kernel.Launch
import proofs.«177419_j37426345017678_2_alg».proof.Proof.Gen.Kernel.Points
import proofs.«177419_j37426345017678_2_alg».proof.Proof.Gen.Kernel.Frame
import proofs.«177419_j37426345017678_2_alg».proof.Proof.Gen.KernelIdeal
import proofs.«177419_j37426345017678_2_alg».proof.Proof.Gen.KernelIdeal.Skeleton
import proofs.«177419_j37426345017678_2_alg».proof.Proof.Gen.KernelIdeal.Launch
import proofs.«177419_j37426345017678_2_alg».proof.Proof.Gen.KernelIdeal.Points
import proofs.«177419_j37426345017678_2_alg».proof.Proof.Gen.KernelIdeal.Frame
import proofs.«177419_j37426345017678_2_alg».proof.Proof.Gen.ReferenceIdeal
import proofs.«177419_j37426345017678_2_alg».proof.Proof.Gen.ReferenceIdeal.Run
import proofs.«177419_j37426345017678_2_alg».proof.Proof.Gen.ReferenceIdeal.Read
import proofs.«177419_j37426345017678_2_alg».proof.Proof.Gen.Pre_finite_inputs
import proofs.«177419_j37426345017678_2_alg».proof.Proof.KerRun
import proofs.«177419_j37426345017678_2_alg».proof.Proof.KerValue
import proofs.«177419_j37426345017678_2_alg».proof.Proof.RefValue
import Idealize.ShloMosaic.Adequacy
import Idealize.ShloMosaic.Init

noncomputable section

namespace Cert.Proof

open Idealize.ShloMosaic Idealize.SL.Sem

/-- The kernel program as printed runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The idealized reference runs and leaves its arguments as launched: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the ten arguments both idealized programs end with the network's output of those
    arguments in their result buffers. -/
theorem algebraic : Cert.algebraic_KernelIdeal_ReferenceIdeal := by
  intro m ρ m' ρ' _ hagree
  refine ⟨fun c => Cert.ReferenceIdeal.RefValue.ginOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.HostValue.result_eq m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v47_eq, Cert.ReferenceIdeal.RefValue.result_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
